-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S256x1 : Shape := ⟨2, ![256, 1]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S8192x4096, .f32⟩
  | .hbm, ⟨5, _⟩ => ⟨S8192x4096, .bf16⟩
  | .hbm, ⟨6, _⟩ => ⟨S1x11008, .f32⟩
  | .hbm, ⟨7, _⟩ => ⟨S8192x11008, .f32⟩
  | .hbm, ⟨8, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x11008.size a
  hwx0_4 : ∀ i : grid0.Coords, EltTy.bits .f32 = 32 ∨ (Rect.block (s := S8192x11008) S1024x256.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S4x2048x11008, .f32⟩
  | .hbm, ⟨8, _⟩ => ⟨S1x1x11008, .f32⟩
  | .hbm, ⟨9, _⟩ => ⟨S4x2048x11008, .f32⟩
  | .hbm, ⟨10, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.QuantLinearSpec.lean ====
/-
  The quantised linear layer as one function of its four arrays, over the extended reals.

  An activation row `x` (4096 entries), a row of signed 32-bit weight words `w` (4096 entries), that output channel's
  scale `s` and its bias `b` give one output entry

      Σₖ x k · (⟦w k⟧ · s)  +  b

  where `⟦·⟧` reads a word as the signed integer it encodes. The program that launches the tiled matrix product
  leaves this number at row `r` and channel `n` of an 8192 × 11008 array (the activations flattened to 8192 rows of
  4096, the bias as one row of 11008); the plain tensor program leaves it at batch `a`, position `t` and channel `n` of
  a 4 × 2048 × 11008 array. Both arrays are stated here through the one scalar function `entry`, so that comparing
  them is comparing rows of their arguments.
-/
import Idealize.ShloMosaic.PureOps.Ideal
import Idealize.ShloMosaic.Lib.ValueIdx

noncomputable section

open scoped BigOperators

namespace Cert.QuantLinear

open Idealize.ShloMosaic Idealize.ShloMosaic.ValueIdx

/-- One output entry: the dot product of an activation row with the dequantised weight row (each weight word read as
    a signed integer and multiplied by the channel's scale), plus the channel's bias. -/
def entry (x : Fin 4096 → EReal) (w : Fin 4096 → BitVec 32) (s b : EReal) : EReal :=
  (∑ k : Fin 4096, x k * (FloatOps.sitofp (F := Ideal) .f32 (w k) * s)) + b

/-- The layer over flattened activations: entry `(r, n)` of the 8192 × 11008 result, from the activations as 8192
    rows, the weight words, the scales as a column and the bias as one row. -/
def flat (X : (⟨2, ![8192, 4096]⟩ : Shape).Idx → EReal) (W : (⟨2, ![11008, 4096]⟩ : Shape).Idx → BitVec 32)
    (S : (⟨2, ![11008, 1]⟩ : Shape).Idx → EReal) (B : (⟨2, ![1, 11008]⟩ : Shape).Idx → EReal) :
    (⟨2, ![8192, 11008]⟩ : Shape).Idx → EReal := fun j =>
  entry (fun k => X (ix2 (n0 := 8192) (j 0) k)) (fun k => W (ix2 (n0 := 11008) (j 1) k))
    (S (ix2 (n0 := 11008) (j 1) (0 : Fin 1))) (B (ix2 (0 : Fin 1) (n1 := 11008) (j 1)))

/-- The layer over batched activations: entry `(a, t, n)` of the 4 × 2048 × 11008 result, from the activations, the
    weight words, the scales as a column and the bias as a vector. -/
def batched (x : (⟨3, ![4, 2048, 4096]⟩ : Shape).Idx → EReal) (W : (⟨2, ![11008, 4096]⟩ : Shape).Idx → BitVec 32)
    (S : (⟨2, ![11008, 1]⟩ : Shape).Idx → EReal) (b : (⟨1, ![11008]⟩ : Shape).Idx → EReal) :
    (⟨3, ![4, 2048, 11008]⟩ : Shape).Idx → EReal := fun i =>
  entry (fun k => x (ix3 (n0 := 4) (n1 := 2048) (i 0) (i 1) k)) (fun k => W (ix2 (n0 := 11008) (i 2) k))
    (S (ix2 (n0 := 11008) (i 2) (0 : Fin 1))) (b (ix1 (n := 11008) (i 2)))

end Cert.QuantLinear

end
-- ==== Proof.QuantLinearBody.lean ====
/-
  One grid point's arithmetic, read at an index.

  At a grid point the body holds a 1024 × 4096 block of activations, a 256 × 4096 block of weight words, the 256 × 1
  column of those channels' scales and the 1 × 256 row of their biases. It converts the words to reals, multiplies
  each weight row by its scale (the column broadcast along the row), contracts the activations with the scaled
  weights over the shared 4096-axis into a zero accumulator, and adds the bias row broadcast down the 1024 rows.
  Over the extended reals the changes of float format are the identity, the zero accumulator adds nothing, and the
  contraction is the plain sum over the 4096 positions; so entry `(p, q)` of the block the body stores is
  `entry` of activation row `p`, weight row `q`, scale `q` and bias `q`.
-/
import proofs.«149936_j6451040879067_1_alg».proof.Proof.Gen.KernelIdeal.Skeleton
import proofs.«149936_j6451040879067_1_alg».proof.Proof.QuantLinearSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.QuantLinear

open Cert.KernelIdeal Cert.KernelIdeal.Gen Idealize.ShloMosaic Idealize.ShloMosaic.ValueIdx

/-- The contraction's record: activations [1024, 4096] against weights [256, 4096] over their last axes. -/
abbrev blockDot : DotDims S1024x4096 S256x4096 S1024x256 := dot_S1024x4096_S256x4096_S1024x256_1_1_0_0_n_n

/-- The activation operand's row coordinate is the output's row. -/
theorem blockDot_lhs_row (j : S1024x256.Idx) (κ : blockDot.contr.Idx) : (blockDot.lhsIdx j κ 0).val = (j 0).val := by
  unfold DotDims.lhsIdx
  rw [dif_neg (show ¬(0 : Fin S1024x4096.rank) ∈ blockDot.lhsBatch by decide),
    dif_pos (show (0 : Fin S1024x4096.rank) ∈ blockDot.lhsNonContracting by decide)]
  rfl

/-- Its column coordinate is the contraction position. -/
theorem blockDot_lhs_col (j : S1024x256.Idx) (κ : blockDot.contr.Idx) :
    (blockDot.lhsIdx j κ 1).val = (κ ⟨0, by decide⟩).val :=
  blockDot.lhsIdx_val_of_single rfl j κ

/-- The weight operand's row coordinate is the output's column. -/
theorem blockDot_rhs_row (j : S1024x256.Idx) (κ : blockDot.contr.Idx) : (blockDot.rhsIdx j κ 0).val = (j 1).val := by
  unfold DotDims.rhsIdx
  rw [dif_neg (show ¬(0 : Fin S256x4096.rank) ∈ blockDot.rhsBatch by decide),
    dif_pos (show (0 : Fin S256x4096.rank) ∈ blockDot.rhsNonContracting by decide)]
  rfl

/-- Its column coordinate is the contraction position. -/
theorem blockDot_rhs_col (j : S1024x256.Idx) (κ : blockDot.contr.Idx) :
    (blockDot.rhsIdx j κ 1).val = (κ ⟨0, by decide⟩).val :=
  blockDot.rhsIdx_val_of_single rfl j κ

/-- A [256, 1] column broadcast along rows of 4096 reads, at `(q, k)`, the column's entry `q`. -/
theorem scaleColumn_apply (v : S256x1.Idx → EReal) (h : S256x1.Broadcasts S256x4096) (q : Fin 256) (k : Fin 4096) :
    broadcastTo S256x4096 v h (ix2 q k) = v (ix2 q (0 : Fin 1)) := by
  refine broadcastTo_apply v h (ix2 q k) (ix2 q (0 : Fin 1)) fun ax => ?_
  match ax with
  | ⟨0, _⟩ => rfl
  | ⟨1, _⟩ => rfl

/-- The contraction into the zero accumulator, at `(p, q)`: the sum over the 4096 positions of activation `(p, k)`
    times weight `(q, k)`. -/
theorem blockDot_apply (a : FVec Ideal S1024x4096 .bf16) (w : FVec Ideal S256x4096 .bf16) (p : Fin 1024) (q : Fin 256) :
    matmul blockDot none a w (constant S1024x256 .f32 0x00000000#32) (ix2 p q)
      = ∑ k : Fin 4096, a (ix2 p k) * w (ix2 q k) := by
  simp only [matmul]
  rw [Ideal.matmul_constant_zero_apply, ← Equiv.sum_comp (contrEquiv1 blockDot 4096 rfl rfl).symm]
  refine Finset.sum_congr rfl fun k _ => ?_
  have hk := contrEquiv1_symm_val blockDot 4096 rfl rfl k
  have el : blockDot.lhsIdx (ix2 p q) ((contrEquiv1 blockDot 4096 rfl rfl).symm k) = ix2 p k :=
    funext fun ax => Fin.ext (by
      match ax with
      | ⟨0, _⟩ => exact blockDot_lhs_row _ _
      | ⟨1, _⟩ => exact (blockDot_lhs_col _ _).trans hk)
  have er : blockDot.rhsIdx (ix2 p q) ((contrEquiv1 blockDot 4096 rfl rfl).symm k) = ix2 q k :=
    funext fun ax => Fin.ext (by
      match ax with
      | ⟨0, _⟩ => exact blockDot_rhs_row _ _
      | ⟨1, _⟩ => exact (blockDot_rhs_col _ _).trans hk)
  rw [el, er]

/-- WHAT THE BODY STORES, at `(p, q)`: `entry` of activation row `p`, weight row `q`, scale `q` and bias `q` of the
    blocks it loaded. -/
theorem stored_apply (x0 : Vec Ideal S1024x4096 .bf16) (x1 : Vec Ideal S256x4096 .i32) (x2 : Vec Ideal S256x1 .f32)
    (x3 : Vec Ideal S1x256 .f32) (p : Fin 1024) (q : Fin 256) :
    k0_pay1 (F := Ideal) x0 x1 x2 x3 (ix2 p q)
      = entry (fun k => x0 (ix2 p k)) (fun k => x1 (ix2 q k)) (x2 (ix2 q (0 : Fin 1))) (x3 (ix2 (0 : Fin 1) q)) := by
  unfold k0_pay1 entry
  rw [shapeCast_self, shapeCast_self]
  refine (addf_apply _ _ _).trans ?_
  refine congrArg₂ (· + ·) ?_ ?_
  · refine (blockDot_apply _ _ p q).trans ?_
    refine Finset.sum_congr rfl fun k _ => ?_
    refine congrArg (x0 (ix2 p k) * ·) ?_
    show FloatOps.sitofp (F := Ideal) .f32 (x1 (ix2 q k)) * broadcastTo S256x4096 x2 _ (ix2 q k) = _
    rw [scaleColumn_apply]
  · exact broadcastTo_1b_ab_apply x3 _ p q

end Cert.QuantLinear

end
-- ==== Proof.QuantLinearBlocks.lean ====
/-
  From grid points to the whole 8192 × 11008 array.

  The grid has 8 × 43 points; point `(i, j)` holds activation rows `1024·i …`, weight rows (and scales, and biases)
  `256·j …`, and writes back the 1024 × 256 block of the result at block position `(i, j)`. An element `(p, q)` of that
  block therefore sits at row `1024·i + p` and channel `256·j + q` of the result, and by the body's arithmetic it is
  `entry` of exactly that row of the activations and that channel of the weights, scales and biases: every point
  writes back its block of the ONE array `flat`. The blocks tile the array (row `r` and channel `n` lie in the block
  of point `(r / 1024, n / 256)`), so after the last point the array is `flat` of the arrays the launch found.
-/
import proofs.«149936_j6451040879067_1_alg».proof.Proof.Gen.KernelIdeal.Frame
import proofs.«149936_j6451040879067_1_alg».proof.Proof.QuantLinearBody
import Idealize.ShloMosaic.Lib.Pipeline.Value

noncomputable section

namespace Cert.QuantLinear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- The block positions at a grid point, decided over the 344 points: the activations follow the output's block row,
    the weights, scales and biases its block column, every other block coordinate is 0, and the output's block
    position is the point's number split as (quotient, remainder) by 43. -/
theorem blockPositions : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) = t.val / 43 ∧ win0_4.index t (1 : Fin 2) = t.val % 43 :=
  (by decide +kernel : ∀ t : Fin grid0.N, _)

/-- The body's stored block at `y` is `flat` at `i`, once the four loaded blocks are known to be the rows of four
    arrays that `i` names: activation row `y 0` is row `i 0`, weight row / scale / bias `y 1` are channel `i 1`'s. -/
theorem stored_eq_flat (x0 : Vec Ideal S1024x4096 .bf16) (x1 : Vec Ideal S256x4096 .i32) (x2 : Vec Ideal S256x1 .f32)
    (x3 : Vec Ideal S1x256 .f32) (X : S8192x4096.Idx → EReal) (W : S11008x4096.Idx → BitVec 32)
    (S : S11008x1.Idx → EReal) (B : S1x11008.Idx → EReal) (y : S1024x256.Idx) (i : S8192x11008.Idx)
    (h0 : ∀ k : Fin 4096, x0 (ix2 (n0 := 1024) (y 0) k) = X (ix2 (n0 := 8192) (i 0) k))
    (h1 : ∀ k : Fin 4096, x1 (ix2 (n0 := 256) (y 1) k) = W (ix2 (n0 := 11008) (i 1) k))
    (h2 : x2 (ix2 (n0 := 256) (y 1) (0 : Fin 1)) = S (ix2 (n0 := 11008) (i 1) (0 : Fin 1)))
    (h3 : x3 (ix2 (0 : Fin 1) (n1 := 256) (y 1)) = B (ix2 (0 : Fin 1) (n1 := 11008) (i 1))) :
    k0_pay1 (F := Ideal) x0 x1 x2 x3 y = flat X W S B i := by
  refine ((congrArg (k0_pay1 (F := Ideal) x0 x1 x2 x3) (eq_ix2 y)).trans (stored_apply x0 x1 x2 x3 (y 0) (y 1))).trans ?_
  show entry _ _ _ _ = entry _ _ _ _
  exact congr (congr (congr (congrArg entry (funext h0)) (funext h1)) h2) h3

/-- WHAT POINT `t` WRITES BACK is block `t` of `flat` of the four arrays as the launch finds them. -/
theorem flushed_eq (c : Dev nD) (t : Fin cfg0.N) :
    (dats m 0 c).flushed 4 t
      = ((cfg0.win 4).blk t).view.read (Elt Ideal) (flat (V m c main_v1) (V m c main_arg1) (V m c main_arg2) (V m c main_v2)) := by
  show (cfg0.win 4).cut (grid0.coords t) ((dats m 0 c).after 4 t) = _
  rw [after0_4]
  unfold out0_4
  rw [View.canon_unit_zero zeroOffsets]
  simp only [View.ld_unit_zero (S := S1024x4096) zeroOffsets, View.ld_unit_zero (S := S256x4096) zeroOffsets,
    View.ld_unit_zero (S := S256x1) zeroOffsets, View.ld_unit_zero (S := S1x256) zeroOffsets]
  obtain ⟨e00, e01, e10, e11, e20, e21, e30, e31, -, -⟩ := blockPositions t
  funext j
  show k0_pay1 (F := Ideal) (iblk m c 0 t) (iblk m c 1 t) (iblk m c 2 t) (iblk m c 3 t) j
    = flat (V m c main_v1) (V m c main_arg1) (V m c main_arg2) (V m c main_v2) (((cfg0.win 4).blk t).view.emb j)
  have hj0 : (j 0).val < 1024 := (j 0).isLt
  have hj1 : (j 1).val < 256 := (j 1).isLt
  refine stored_eq_flat (iblk m c 0 t) (iblk m c 1 t) (iblk m c 2 t) (iblk m c 3 t) (V m c main_v1) (V m c main_arg1)
    (V m c main_arg2) (V m c main_v2) j (((cfg0.win 4).blk t).view.emb j) ?_ ?_ ?_ ?_
  · intro k
    show V m c main_v1 (((cfg0.win 0).blk t).view.emb (ix2 (n0 := 1024) (j 0) k)) = _
    refine congrArg (V m c main_v1) (funext fun a => Fin.ext ?_)
    match a with
    | ⟨0, _⟩ =>
      show win0_0.index t (0 : Fin 2) * 1024 + 1 * (j 0).val = win0_4.index t (0 : Fin 2) * 1024 + 1 * (j 0).val
      omega
    | ⟨1, _⟩ =>
      show win0_0.index t (1 : Fin 2) * 4096 + 1 * k.val = k.val
      omega
  · intro k
    show V m c main_arg1 (((cfg0.win 1).blk t).view.emb (ix2 (n0 := 256) (j 1) k)) = _
    refine congrArg (V m c main_arg1) (funext fun a => Fin.ext ?_)
    match a with
    | ⟨0, _⟩ =>
      show win0_1.index t (0 : Fin 2) * 256 + 1 * (j 1).val = win0_4.index t (1 : Fin 2) * 256 + 1 * (j 1).val
      omega
    | ⟨1, _⟩ =>
      show win0_1.index t (1 : Fin 2) * 4096 + 1 * k.val = k.val
      omega
  · show V m c main_arg2 (((cfg0.win 2).blk t).view.emb (ix2 (n0 := 256) (j 1) (0 : Fin 1))) = _
    refine congrArg (V m c main_arg2) (funext fun a => Fin.ext ?_)
    match a with
    | ⟨0, _⟩ =>
      show win0_2.index t (0 : Fin 2) * 256 + 1 * (j 1).val = win0_4.index t (1 : Fin 2) * 256 + 1 * (j 1).val
      omega
    | ⟨1, _⟩ =>
      show win0_2.index t (1 : Fin 2) * 1 + 1 * 0 = 0
      omega
  · show V m c main_v2 (((cfg0.win 3).blk t).view.emb (ix2 (0 : Fin 1) (n1 := 256) (j 1))) = _
    refine congrArg (V m c main_v2) (funext fun a => Fin.ext ?_)
    match a with
    | ⟨0, _⟩ =>
      show win0_3.index t (0 : Fin 2) * 1 + 1 * 0 = 0
      omega
    | ⟨1, _⟩ =>
      show win0_3.index t (1 : Fin 2) * 256 + 1 * (j 1).val = win0_4.index t (1 : Fin 2) * 256 + 1 * (j 1).val
      omega

/-- An index of the result is in point `t`'s block iff each coordinate is in the block's range on its axis. -/
theorem mem_block (t : Fin cfg0.N) (i : S8192x11008.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v3).slice (win0_4.rect t)).set ↔ _
  rw [View.set_slice_whole, Rect.mem_set_unit]
  exact Iff.rfl

/-- THE BLOCKS TILE THE RESULT: row `r`, channel `n` lies in the block of point `43·(r / 1024) + n / 256`. -/
theorem covered (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  obtain ⟨t, ht⟩ : ∃ t : Fin cfg0.N, t.val = (i 0).val / 1024 * 43 + (i 1).val / 256 :=
    ⟨⟨(i 0).val / 1024 * 43 + (i 1).val / 256, lt_of_lt_of_eq (by omega) N_0.symm⟩, rfl⟩
  obtain ⟨-, -, -, -, -, -, -, -, q0, q1⟩ := blockPositions t
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- THE RESULT ARRAY after the last grid point is `flat` of the four arrays as the launch finds them. -/
theorem final (c : Dev nD) :
    (dats m 0 c).arrAt 4 cfg0.N = flat (V m c main_v1) (V m c main_arg1) (V m c main_arg2) (V m c main_v2) :=
  (dats m 0 c).arrAt_eq_of_cover 4 _ (fun t _ => flushed_eq m c t) covered

end Cert.QuantLinear

end
-- ==== Proof.QuantLinearLayout.lean ====
/-
  Flattening the batch: the two arrangements of the layer hold the same numbers.

  Rows of the 8192 × 4096 activations are the (batch, position) pairs of the 4 × 2048 × 4096 ones in row-major order:
  row `2048·a + t` is batch `a`, position `t`. The bias as one row of 11008 is the bias vector. So the flattened
  layer applied to the flattened activations and the bias row, read back as a 4 × 2048 × 11008 array, is the batched
  layer: at `(a, t, n)` both are `entry` of the same activation row, weight row, scale and bias.
-/
import proofs.«149936_j6451040879067_1_alg».proof.Proof.QuantLinearSpec
import Idealize.ShloMosaic.Lib.Pipeline.Value
import Idealize.ShloMosaic.Lib.ValueLayout

noncomputable section

namespace Cert.QuantLinear

open Idealize.ShloMosaic Idealize.ShloMosaic.ValueIdx

/-- The flattened layer of the flattened arguments, un-flattened, is the batched layer. -/
theorem unflatten_flat (x : (⟨3, ![4, 2048, 4096]⟩ : Shape).Idx → EReal) (W : (⟨2, ![11008, 4096]⟩ : Shape).Idx → BitVec 32)
    (S : (⟨2, ![11008, 1]⟩ : Shape).Idx → EReal) (b : (⟨1, ![11008]⟩ : Shape).Idx → EReal)
    (hx : (⟨3, ![4, 2048, 4096]⟩ : Shape).ShapeCasts ⟨2, ![8192, 4096]⟩)
    (hb : (⟨1, ![11008]⟩ : Shape).ShapeCasts ⟨2, ![1, 11008]⟩)
    (ho : (⟨2, ![8192, 11008]⟩ : Shape).ShapeCasts ⟨3, ![4, 2048, 11008]⟩) :
    shapeCast ⟨3, ![4, 2048, 11008]⟩
        (flat (shapeCast ⟨2, ![8192, 4096]⟩ x hx) W S (shapeCast ⟨2, ![1, 11008]⟩ b hb)) ho
      = batched x W S b := by
  funext i
  have hi0 : (i 0).val < 4 := (i 0).isLt
  have hi1 : (i 1).val < 2048 := (i 1).isLt
  refine (shapeCast_apply _ ho i
    (ix2 (n0 := 8192) (n1 := 11008) ⟨(i 0).val * 2048 + (i 1).val, by omega⟩ (i 2)) ?_).trans ?_
  · rw [Shape.rowMajor_val_two, Shape.rowMajor_val_three]
    rfl
  · show entry _ _ _ _ = entry _ _ _ _
    refine congr (congr (congr (congrArg entry (funext fun k => ?_)) rfl) rfl) ?_
    · refine shapeCast_apply x hx _ _ ?_
      rw [Shape.rowMajor_val_three, Shape.rowMajor_val_two]
      rfl
    · exact shapeCast_a_1a_apply b hb (0 : Fin 1) (i 2)

end Cert.QuantLinear

end
-- ==== Proof.QuantLinearKernelRun.lean ====
/-
  The launching program's run, read.

  Before the launch the program flattens the activations to 8192 rows (and changes their float format, which is
  the identity on the extended reals) and turns the bias vector into one row; the launch fills the 8192 × 11008 result
  with `flat` of those two and the weight words and scales as given; after the launch the program reads the result
  back as a 4 × 2048 × 11008 array. By the flattening lemma that last array is the batched layer of the four arguments,
  and the arguments end as they began.
-/
import proofs.«149936_j6451040879067_1_alg».proof.Proof.QuantLinearBlocks
import proofs.«149936_j6451040879067_1_alg».proof.Proof.QuantLinearLayout
import Idealize.ShloMosaic.Lib.StableHlo.Run

noncomputable section

namespace Cert.QuantLinear

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The activations the launch finds are the argument's, flattened. -/
theorem launched_activations (c : Dev nD) :
    (V m c main_v1 : S8192x4096.Idx → EReal)
      = shapeCast S8192x4096 (m ((c : Thread nD τ).loc main_arg0)) shapeCasts_S4x2048x4096_S8192x4096 := by
  show StableHlo.after (hostOps0 (F := Ideal)) (fun b => m (c, b)) (Proc.devRef .tc main_v1) = _
  after_results
  rfl

/-- The bias row the launch finds is the argument's vector as one row. -/
theorem launched_bias (c : Dev nD) :
    (V m c main_v2 : S1x11008.Idx → EReal)
      = shapeCast S1x11008 (m ((c : Thread nD τ).loc main_arg3)) shapeCasts_S11008_S1x11008 := by
  show StableHlo.after (hostOps0 (F := Ideal)) (fun b => m (c, b)) (Proc.devRef .tc main_v2) = _
  after_results
  rfl

/-- WHAT THE PROGRAM RETURNS: the launch's result array read back in three axes is the batched layer of the four
    arguments. -/
theorem returned (c : Dev nD) :
    Pipeline.afterTail₀ cfgs (dats m) 0 (V0 m) [hostOps1] c main_v4
      = batched (m ((c : Thread nD τ).loc main_arg0)) (m ((c : Thread nD τ).loc main_arg1))
          (m ((c : Thread nD τ).loc main_arg2)) (m ((c : Thread nD τ).loc main_arg3)) := by
  unfold Pipeline.afterTail₀
  show StableHlo.after (hostOps1 (F := Ideal)) _ (Proc.devRef .tc main_v4) = _
  after_results
  have e : Pipeline.withArrays (cfgs 0).spec c (V0 m c) (fun w => (dats m 0 c).arrAt w (cfgs 0).N) (Proc.devRef .tc main_v3)
      = flat (V m c main_v1) (V m c main_arg1) (V m c main_arg2) (V m c main_v2) :=
    (Pipeline.withArrays_arr spec0 launch0.win.arr_inj c _ _ 4).trans (final m c)
  rw [e, launched_activations m c, launched_bias m c, V_main_arg1 m c, V_main_arg2 m c]
  exact unflatten_flat _ _ _ _ _ _ _

/-- THE RUN: every weakly fair execution of the launching program terminates, its result the batched layer of the four
    arguments, the arguments unchanged. -/
theorem run : θ_run defs (onTc (τ := τ) (main (F := Ideal))) ⟨m, fun _ => 0, ρ⟩ fun r => ∀ c : Dev nD,
      r.2.mem ((c.tc : Thread nD τ).loc main_v4)
        = batched (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (returned m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.QuantLinear

end
-- ==== Proof.QuantLinearReference.lean ====
/-
  The plain tensor program computes the batched layer.

  It converts the weight words to reals, broadcasts the scale column along the rows, multiplies, contracts the
  activations' last axis with the scaled weights' last axis, and adds the bias broadcast over batch and position. Read
  at `(a, t, n)`, stage by stage: the contraction is the sum over the 4096 positions of activation `(a, t, k)` times
  scaled weight `(n, k)`; the scaled weight is the word `(n, k)` read signed times scale `(n, 0)`; the broadcast bias is
  bias `n`. That is `entry` of activation row `(a, t)`, weight row `n`, scale `n`, bias `n`.
-/
import proofs.«149936_j6451040879067_1_alg».proof.Proof.Gen.ReferenceIdeal.Read
import proofs.«149936_j6451040879067_1_alg».proof.Proof.QuantLinearSpec

noncomputable section

namespace Cert.QuantLinear

open Cert.ReferenceIdeal Cert.ReferenceIdeal.Gen Cert.ReferenceIdeal.Read Idealize.ShloMosaic Idealize.ShloMosaic.ValueIdx

/-- The last stage of the plain program, as a function of its four arguments, is the batched layer. -/
theorem reference_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    val_main_v6 (F := Ideal) x0 x1 x2 x3 = batched x0 x1 x2 x3 := by
  funext i
  rw [val_main_v6_apply, val_main_v3_apply, val_main_v5_apply, val_main_v4_apply]
  show (∑ k : Fin 4096, _) + _ = entry _ _ _ _
  unfold entry
  refine congrArg₂ (· + ·) (Finset.sum_congr rfl fun k _ => ?_) ?_
  · rw [val_main_v2_apply, val_main_v0_apply, val_main_v1_apply]
    have el : lidx_main_v3 i k = ix3 (n0 := 4) (n1 := 2048) (i 0) (i 1) k :=
      funext fun a => Fin.ext (by match a with | ⟨0, _⟩ => rfl | ⟨1, _⟩ => rfl | ⟨2, _⟩ => rfl)
    have er : ridx_main_v3 i k = ix2 (n0 := 11008) (i 2) k :=
      funext fun a => Fin.ext (by match a with | ⟨0, _⟩ => rfl | ⟨1, _⟩ => rfl)
    have es : idx_main_v1 (ridx_main_v3 i k) = ix2 (n0 := 11008) (i 2) (0 : Fin 1) :=
      funext fun a => Fin.ext (by match a with | ⟨0, _⟩ => rfl | ⟨1, _⟩ => rfl)
    rw [el, es, er]
    rfl
  · have eb : idx_main_v4 (idx_main_v5 i) = ix1 (n := 11008) (i 2) :=
      funext fun a => Fin.ext (by match a with | ⟨0, _⟩ => rfl)
    rw [eb]

end Cert.QuantLinear

end
-- ==== Proof.lean ====
/-
  A linear layer with 8-bit-style quantised weights, computed two ways, gives the same numbers over the extended reals.

  The arguments are activations `x` (4 × 2048 × 4096), weight words `w` (11008 × 4096, 32-bit integers), one scale per
  output channel `s` (11008 × 1) and a bias `b` (11008). Both programs compute, at batch `a`, position `t`, channel `n`,

      Σₖ x[a, t, k] · (⟦w[n, k]⟧ · s[n, 0])  +  b[n]          (k over the 4096 input features)

  with `⟦·⟧` the signed integer a word encodes. The launching program flattens (batch, position) to 8192 rows, tiles
  the 8192 × 11008 result into 8 × 43 blocks of 1024 × 256, and at each block dequantises the 256 weight rows it needs,
  contracts them with the 1024 activation rows into a zero accumulator and adds the bias; the plain program dequantises
  the whole weight matrix, contracts once and adds the broadcast bias. Over the extended reals a change of float
  format is the identity and the contraction is the plain sum, so neither the tiling nor the formats change any entry:
  no algebraic law beyond reading each side at an index is needed, and the precondition is not used.

  The modules: `QuantLinearSpec` states the entry and the two arrangements (`flat`, `batched`); `QuantLinearBody` reads
  one block's arithmetic at an index; `QuantLinearBlocks` shows every grid point writes back its block of `flat` and
  that the blocks tile the result; `QuantLinearLayout` shows un-flattening `flat` of the flattened arguments gives
  `batched`; `QuantLinearKernelRun` reads the launching program's run; `QuantLinearReference` reads the plain
  program's last stage as `batched`. The idealised program is the launching program's own text (no rewrite), so the
  idealisation claim is trivial; the three runs' termination and unchanged arguments are the runs themselves.
-/
import proofs.«149936_j6451040879067_1_alg».proof.Defs
import proofs.«149936_j6451040879067_1_alg».proof.Proof.Gen.Kernel
import proofs.«149936_j6451040879067_1_alg».proof.Proof.Gen.Kernel.Skeleton
import proofs.«149936_j6451040879067_1_alg».proof.Proof.Gen.Kernel.Launch
import proofs.«149936_j6451040879067_1_alg».proof.Proof.Gen.Kernel.Points
import proofs.«149936_j6451040879067_1_alg».proof.Proof.Gen.Kernel.Frame
import proofs.«149936_j6451040879067_1_alg».proof.Proof.Gen.KernelIdeal
import proofs.«149936_j6451040879067_1_alg».proof.Proof.Gen.KernelIdeal.Skeleton
import proofs.«149936_j6451040879067_1_alg».proof.Proof.Gen.KernelIdeal.Launch
import proofs.«149936_j6451040879067_1_alg».proof.Proof.Gen.KernelIdeal.Points
import proofs.«149936_j6451040879067_1_alg».proof.Proof.Gen.KernelIdeal.Frame
import proofs.«149936_j6451040879067_1_alg».proof.Proof.Gen.ReferenceIdeal
import proofs.«149936_j6451040879067_1_alg».proof.Proof.Gen.Pre_finite_inputs
import proofs.«149936_j6451040879067_1_alg».proof.Proof.Gen.ReferenceIdeal.Run
import proofs.«149936_j6451040879067_1_alg».proof.Proof.Gen.ReferenceIdeal.Read
import proofs.«149936_j6451040879067_1_alg».proof.Proof.QuantLinearKernelRun
import proofs.«149936_j6451040879067_1_alg».proof.Proof.QuantLinearReference
import Idealize.ShloMosaic.Adequacy
import Idealize.ShloMosaic.Init

noncomputable section

namespace Cert.Proof

open Idealize.ShloMosaic Idealize.ShloMosaic.TcCoe Idealize.SL.Sem

/-- The word-level launching program terminates without a fault and leaves its arguments as they were. -/
theorem frame_kernel : Cert.frame_Kernel := fun m ρ _ => Cert.Kernel.Gen.frame m ρ

/-- So does the launching program read over the extended reals. -/
theorem frame_kernelIdeal : Cert.frame_KernelIdeal := fun m ρ _ => Cert.KernelIdeal.Gen.frame m ρ

/-- So does the plain program: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealised launching program is the launching program's own text: nothing was rewritten. -/
theorem preserves : Cert.preserves_Kernel_KernelIdeal := trivial

/-- From memories that agree on the four arguments both programs end with the batched layer of those arguments as
    their result: the launching program by its run read block by block, the plain program by its last stage read at an
    index. -/
theorem algebraic : Cert.algebraic_KernelIdeal_ReferenceIdeal := by
  intro m ρ m' ρ' _ hagree
  refine ⟨_, Cert.QuantLinear.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.QuantLinear.reference_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
